-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  main_v3
-- ==== Kernel.lean ====
abbrev S32x256x64x64 : Shape := ⟨4, ![32, 256, 64, 64]⟩
abbrev S32x256x4096 : Shape := ⟨3, ![32, 256, 4096]⟩
abbrev S32x256x256 : Shape := ⟨3, ![32, 256, 256]⟩
abbrev S2x256x4096 : Shape := ⟨3, ![2, 256, 4096]⟩
abbrev S2x256x256 : Shape := ⟨3, ![2, 256, 256]⟩
abbrev S2x256 : Shape := ⟨2, ![2, 256]⟩
abbrev S2x256x1 : Shape := ⟨3, ![2, 256, 1]⟩
abbrev S2x1x256 : Shape := ⟨3, ![2, 1, 256]⟩

abbrev nBuf : Space → Nat
  | .hbm => 3
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x256x256, .f32⟩
  | .local _ .vmem, ⟨0, _⟩ => ⟨S2x256x4096, .f32⟩
  | .local _ .vmem, ⟨1, _⟩ => ⟨S2x256x4096, .f32⟩
  | .local _ .vmem, ⟨2, _⟩ => ⟨S2x256x256, .f32⟩
  | .local _ .vmem, ⟨3, _⟩ => ⟨S2x256x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x64x64_S32x256x4096 : S32x256x64x64.ShapeCasts S32x256x4096
  inb_S2x256x4096_S2x256x4096_0_0_0 : ∀ a, (![0, 0, 0] : Fin 3 → Nat) a + S2x256x4096.size a ≤ S2x256x4096.size a
  h_S2x256x4096 : 0 < S2x256x4096.numel
  shapeCasts_S2x256x4096_S2x256x4096 : S2x256x4096.ShapeCasts S2x256x4096
  reduces_S2x256x4096_S2x256 : S2x256x4096.Reduces [2] S2x256
  bitsLt_bf16_f32 : FTy.bits .bf16 < FTy.bits .f32
  shapeCasts_S2x256_S2x256x1 : S2x256.ShapeCasts S2x256x1
  shapeCasts_S2x256_S2x1x256 : S2x256.ShapeCasts S2x1x256
  broadcasts_S2x256x1_S2x256x256 : S2x256x1.Broadcasts S2x256x256
  broadcasts_S2x1x256_S2x256x256 : S2x1x256.Broadcasts S2x256x256
  inb_S2x256x256_S2x256x256_0_0_0 : ∀ a, (![0, 0, 0] : Fin 3 → Nat) a + S2x256x256.size a ≤ S2x256x256.size a
  h_S2x256x256 : 0 < S2x256x256.numel
  dot_S2x256x4096_S2x256x4096_S2x256x256_2_2_1_1_0_0_wf : DotDims.WF S2x256x4096 S2x256x4096 S2x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S32x256x4096.size a
  hwx0_0 : ∀ i : grid0.Coords, EltTy.bits .f32 = 32 ∨ (Rect.block (s := S32x256x4096) S2x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x256.size a ≤ S32x256x256.size a
  hwx0_1 : ∀ i : grid0.Coords, EltTy.bits .f32 = 32 ∨ (Rect.block (s := S32x256x256) S2x256x256.size (cc0_transform_1 i) (hinb0_1 i)).WholeWords (EltTy.packing .f32)

variable [Facts₀]

def dot_S2x256x4096_S2x256x4096_S2x256x256_2_2_1_1_0_0 : DotDims S2x256x4096 S2x256x4096 S2x256x256 where
  lhsContracting := [2]
  rhsContracting := [2]
  lhsNonContracting := [1]
  rhsNonContracting := [1]
  lhsBatch := [0]
  rhsBatch := [0]
  wf := dot_S2x256x4096_S2x256x4096_S2x256x256_2_2_1_1_0_0_wf

abbrev win0_0 : Pipeline.Window sig grid0 :=
  Pipeline.Window.ofSpec (Memref.whole main_v0) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256x4096 : Shape := ⟨3, ![32, 256, 4096]⟩
abbrev S32x4096x256 : Shape := ⟨3, ![32, 4096, 256]⟩
abbrev S_ : Shape := ⟨0, ![]⟩
abbrev S32x256 : Shape := ⟨2, ![32, 256]⟩
abbrev S32x1x256 : Shape := ⟨3, ![32, 1, 256]⟩
abbrev S32x256x256 : Shape := ⟨3, ![32, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x4096x256, .f32⟩
  | .hbm, ⟨3, _⟩ => ⟨S_, .f32⟩
  | .hbm, ⟨4, _⟩ => ⟨S32x256, .f32⟩
  | .hbm, ⟨5, _⟩ => ⟨S32x1x256, .f32⟩
  | .hbm, ⟨6, _⟩ => ⟨S_, .f32⟩
  | .hbm, ⟨7, _⟩ => ⟨S32x1x256, .f32⟩
  | .hbm, ⟨8, _⟩ => ⟨S32x1x256, .f32⟩
  | .hbm, ⟨9, _⟩ => ⟨S32x4096x256, .f32⟩
  | .hbm, ⟨10, _⟩ => ⟨S32x4096x256, .f32⟩
  | .hbm, ⟨11, _⟩ => ⟨S32x256x256, .f32⟩
  | .hbm, ⟨12, _⟩ => ⟨S_, .f32⟩
  | .hbm, ⟨13, _⟩ => ⟨S32x256x256, .f32⟩
  | .hbm, ⟨14, _⟩ => ⟨S32x256x256, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  reducesTo_S32x4096x256_S32x256_d1 : S32x4096x256.ReducesTo [1] S32x256
  h_S_ : 0 < S_.numel
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x4096x256_0_1_2 : S32x1x256.BroadcastsInDim S32x4096x256 (![0, 1, 2] : Fin 3 → Fin S32x4096x256.rank)
  bcast_S_S32x256x256 : S_.BroadcastsInDim S32x256x256 (![] : Fin 0 → Fin S32x256x256.rank)
  dot_S32x4096x256_S32x4096x256_S32x256x256_1_1_2_2_0_0_wf : DotDims.WF S32x4096x256 S32x4096x256 S32x256x256 [1] [1] [2] [2] [0] [0]

variable [Facts₀]

def dot_S32x4096x256_S32x4096x256_S32x256x256_1_1_2_2_0_0 : DotDims S32x4096x256 S32x4096x256 S32x256x256 where
  lhsContracting := [1]
  rhsContracting := [1]
  lhsNonContracting := [2]
  rhsNonContracting := [2]
  lhsBatch := [0]
  rhsBatch := [0]
  wf := dot_S32x4096x256_S32x4096x256_S32x256x256_1_1_2_2_0_0_wf

class Facts : Prop extends Facts₀ where

variable [Facts]
-- ==== Proof.CovLaw.lean ====
/-
  The covariance law on the extended reals.

  For two rows `a`, `b` of 4096 REAL numbers write `A = Σ a`, `B = Σ b`.  The centred form
      Σ_k (a_k − A/4096) · (b_k − B/4096)
  and the uncentred form
      Σ_k a_k · b_k − (A · B)/4096
  are the same number: expanding the product, the two cross terms are each `A·B/4096` and the
  constant term summed over the 4096 positions is `4096 · (A/4096)(B/4096) = A·B/4096`.  The last
  step needs the divisor to be exactly the number of summands, so the float word `0x45800000` is
  evaluated once (it denotes 4096); the outer divisor (the word for 4095) is the same on both
  sides and is never evaluated.  The law is FALSE at infinite entries (∞ − ∞), so it is stated
  for rows of reals embedded in the extended reals.
-/
import Mathlib
import Idealize.ShloMosaic.PureOps.Ideal
import Idealize.ShloMosaic.Lib.ValueIdx

noncomputable section

namespace Cert.Cov

open Idealize.ShloMosaic Idealize.ShloMosaic.ValueIdx

/-- The word `0x45800000` denotes the real 4096. -/
theorem ofBits_4096 : Ideal.ofBits .f32 0x45800000#32 = ((4096 : ℝ) : EReal) := by
  simp [Ideal.ofBits, Ideal.ieee, -EReal.coe_mul]; norm_num

/-- The embedding of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law over the reals: centred products summed = uncentred products summed minus `A·B/4096`. -/
theorem centred_real (a b : Fin 4096 → ℝ) :
    ∑ k, (a k - (∑ j, a j) * (1 / 4096)) * (b k - (∑ j, b j) * (1 / 4096))
      = (∑ k, a k * b k) - ((∑ j, a j) * (∑ j, b j)) * (1 / 4096) := by
  set A := ∑ j, a j with hA
  set B := ∑ j, b j with hB
  have h1 : ∀ k, (a k - A * (1 / 4096)) * (b k - B * (1 / 4096))
      = a k * b k - (B * (1 / 4096)) * a k - (A * (1 / 4096)) * b k + A * B * (1 / 4096) * (1 / 4096) := by
    intro k; ring
  simp only [h1, Finset.sum_add_distrib, Finset.sum_sub_distrib, ← Finset.mul_sum, Finset.sum_const,
    Finset.card_univ, Fintype.card_fin, nsmul_eq_mul, ← hA, ← hB]
  push_cast
  ring

/-- The two forms of the numerator of a covariance entry, as the two programs spell them: the
    divisions are `Ideal.div` by the float word of 4096. -/
def uncentred (a b : Fin 4096 → EReal) : EReal :=
  (∑ k, a k * b k) - Ideal.div ((∑ k, a k) * (∑ k, b k)) (Ideal.ofBits .f32 0x45800000#32)

def centred (a b : Fin 4096 → EReal) : EReal :=
  ∑ k, (a k - Ideal.div (∑ j, a j) (Ideal.ofBits .f32 0x45800000#32))
      * (b k - Ideal.div (∑ j, b j) (Ideal.ofBits .f32 0x45800000#32))

/-- For rows of reals the two numerators agree. -/
theorem centred_eq_uncentred (a b : Fin 4096 → EReal) (ha : ∀ k, ∃ r : ℝ, a k = (r : EReal))
    (hb : ∀ k, ∃ r : ℝ, b k = (r : EReal)) : centred a b = uncentred a b := by
  choose a' ha' using ha
  choose b' hb' using hb
  have ea : a = fun k => ((a' k : ℝ) : EReal) := funext ha'
  have eb : b = fun k => ((b' k : ℝ) : EReal) := funext hb'
  subst ea eb
  unfold centred uncentred
  rw [ofBits_4096]
  simp only [Ideal.div_coe (by norm_num : (4096 : ℝ) ≠ 0), ← coe_sum, ← EReal.coe_mul, ← EReal.coe_sub]
  exact congrArg _ (centred_real a' b')

/-! ## The covariance array, in its two spellings

Both programs work on the input recast to `y : [32, 256, 4096]` (batch, channel, position).
Entry `(b, d, e)` of the result pairs rows `d` and `e` of batch `b`; the kernel spells its numerator
uncentred, the reference centred; both divide by the float word of 4095. -/

/-- Entry `(b, d, e)` as the kernel computes it. -/
def entryU (y : (⟨3, ![32, 256, 4096]⟩ : Shape).Idx → EReal) (b : Fin 32) (d e : Fin 256) : EReal :=
  Ideal.div (uncentred (fun k => y (ix3 b d k)) (fun k => y (ix3 b e k))) (Ideal.ofBits .f32 0x457FF000#32)

/-- Entry `(b, d, e)` as the reference computes it. -/
def entryC (y : (⟨3, ![32, 256, 4096]⟩ : Shape).Idx → EReal) (b : Fin 32) (d e : Fin 256) : EReal :=
  Ideal.div (centred (fun k => y (ix3 b d k)) (fun k => y (ix3 b e k))) (Ideal.ofBits .f32 0x457FF000#32)

/-- The whole `[32, 256, 256]` array, uncentred spelling. -/
def covU (y : (⟨3, ![32, 256, 4096]⟩ : Shape).Idx → EReal) : (⟨3, ![32, 256, 256]⟩ : Shape).Idx → EReal :=
  fun i => entryU y (i 0) (i 1) (i 2)

/-- The whole array, centred spelling. -/
def covC (y : (⟨3, ![32, 256, 4096]⟩ : Shape).Idx → EReal) : (⟨3, ![32, 256, 256]⟩ : Shape).Idx → EReal :=
  fun i => entryC y (i 0) (i 1) (i 2)

/-- On an array of reals the two spellings are one array. -/
theorem covC_eq_covU (y : (⟨3, ![32, 256, 4096]⟩ : Shape).Idx → EReal) (hy : ∀ j, ∃ r : ℝ, y j = (r : EReal)) :
    covC y = covU y := by
  funext i
  unfold covC covU entryC entryU
  rw [centred_eq_uncentred _ _ (fun k => hy _) (fun k => hy _)]

end Cert.Cov

end
-- ==== Proof.BlockEntry.lean ====
/-
  One block of the kernel, entry by entry.

  A grid point holds a block `x` of two batches, `[2, 256, 4096]`.  Its body computes, for batch
  `p` and channels `d`, `e`,
      ( Σ_k x[p,d,k]·x[p,e,k]  −  (Σ_k x[p,d,k])·(Σ_k x[p,e,k]) / 4096 ) / 4095 :
  the batched product of the block with itself contracted over the last axis (the rounding of
  its operands to bf16 is the identity on the extended reals, and the accumulator is zero), the
  row sums kept once as a column `[2,256,1]` and once as a row `[2,1,256]` and spread over
  `[2,256,256]`, their product divided by 4096, and the difference divided by 4095.
-/
import proofs.«157066_j25031069401649_2_alg».proof.Proof.Gen.KernelIdeal.Skeleton
import proofs.«157066_j25031069401649_2_alg».proof.Proof.CovLaw
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The batched product's dimension record: batch axis 0, contraction over axis 2 of both operands. -/
abbrev DD := dot_S2x256x4096_S2x256x4096_S2x256x256_2_2_1_1_0_0

/-! ## The operand indices of the batched product -/

theorem lhs0 (i : S2x256x256.Idx) (q : DD.contr.Idx) : (DD.lhsIdx i q 0).val = (i 0).val := by
  unfold DotDims.lhsIdx
  rw [dif_pos (show (0 : Fin S2x256x4096.rank) ∈ DD.lhsBatch by decide)]
  rfl
theorem lhs1 (i : S2x256x256.Idx) (q : DD.contr.Idx) : (DD.lhsIdx i q 1).val = (i 1).val := by
  unfold DotDims.lhsIdx
  rw [dif_neg (show ¬(1 : Fin S2x256x4096.rank) ∈ DD.lhsBatch by decide),
    dif_pos (show (1 : Fin S2x256x4096.rank) ∈ DD.lhsNonContracting by decide)]
  rfl
theorem lhs2 (i : S2x256x256.Idx) (q : DD.contr.Idx) : (DD.lhsIdx i q 2).val = (q ⟨0, by decide⟩).val :=
  DD.lhsIdx_val_of_single rfl i q
theorem rhs0 (i : S2x256x256.Idx) (q : DD.contr.Idx) : (DD.rhsIdx i q 0).val = (i 0).val := by
  unfold DotDims.rhsIdx
  rw [dif_pos (show (0 : Fin S2x256x4096.rank) ∈ DD.rhsBatch by decide)]
  rfl
theorem rhs1 (i : S2x256x256.Idx) (q : DD.contr.Idx) : (DD.rhsIdx i q 1).val = (i 2).val := by
  unfold DotDims.rhsIdx
  rw [dif_neg (show ¬(1 : Fin S2x256x4096.rank) ∈ DD.rhsBatch by decide),
    dif_pos (show (1 : Fin S2x256x4096.rank) ∈ DD.rhsNonContracting by decide)]
  rfl
theorem rhs2 (i : S2x256x256.Idx) (q : DD.contr.Idx) : (DD.rhsIdx i q 2).val = (q ⟨0, by decide⟩).val :=
  DD.rhsIdx_val_of_single rfl i q

/-- The batched product into a zero accumulator, at `(p, d, e)`: the sum over `k` of
    `l[p,d,k] · r[p,e,k]`. -/
theorem product_apply (l r : FVec Ideal S2x256x4096 .bf16) (p : Fin 2) (d e : Fin 256) :
    FloatOps.matmul DD none l r (constant S2x256x256 .f32 0x00000000#32) (ix3 p d e)
      = ∑ k : Fin 4096, l (ix3 p d k) * r (ix3 p e k) := by
  rw [Ideal.matmul_constant_zero_apply, ← Equiv.sum_comp (contrEquiv1 DD 4096 rfl rfl).symm]
  refine Finset.sum_congr rfl fun k _ => ?_
  have hk := contrEquiv1_symm_val DD 4096 rfl rfl k
  have el : DD.lhsIdx (ix3 p d e) ((contrEquiv1 DD 4096 rfl rfl).symm k) = ix3 p d k := funext fun a => Fin.ext (by
    match a with
    | ⟨0, _⟩ => exact lhs0 _ _
    | ⟨1, _⟩ => exact lhs1 _ _
    | ⟨2, _⟩ => exact (lhs2 _ _).trans hk)
  have er : DD.rhsIdx (ix3 p d e) ((contrEquiv1 DD 4096 rfl rfl).symm k) = ix3 p e k := funext fun a => Fin.ext (by
    match a with
    | ⟨0, _⟩ => exact rhs0 _ _
    | ⟨1, _⟩ => exact rhs1 _ _
    | ⟨2, _⟩ => exact (rhs2 _ _).trans hk)
  rw [el, er]

/-! ## The row sums, as a column and as a row -/

/-- The sum over the last axis at `(p, d)`. -/
theorem rowsum_apply (x : FVec Ideal S2x256x4096 .f32) (p : Fin 2) (d : Fin 256) :
    multiReduction .add [2] S2x256 x 0x00000000#32 reduces_S2x256x4096_S2x256 (.inl rfl) rfl (ix2 p d)
      = ∑ k : Fin 4096, x (ix3 p d k) := by
  refine (Ideal.multiReduction_add_single x 0x00000000#32 reduces_S2x256x4096_S2x256 (.inl rfl) rfl (ix2 p d)).trans ?_
  refine Finset.sum_congr rfl fun k _ => ?_
  exact congrArg x (funext fun a => Fin.ext (by match a with | ⟨0, _⟩ => rfl | ⟨1, _⟩ => rfl | ⟨2, _⟩ => rfl))

/-- A `[2,256]` array kept as a column `[2,256,1]` and spread over `[2,256,256]`: entry `(p,d,e)` is `v[p,d]`. -/
theorem column_apply (v : FVec Ideal S2x256 .f32) (p : Fin 2) (d e : Fin 256) :
    broadcastTo S2x256x256 (shapeCast S2x256x1 v shapeCasts_S2x256_S2x256x1) broadcasts_S2x256x1_S2x256x256 (ix3 p d e)
      = v (ix2 p d) := by
  refine (broadcastTo_apply _ broadcasts_S2x256x1_S2x256x256 (ix3 p d e) (ix3 p d (0 : Fin 1)) (fun a => ?_)).trans ?_
  · match a with
    | ⟨0, _⟩ => show p.val = if (2 : Nat) = 1 then 0 else p.val; rw [if_neg (by decide)]
    | ⟨1, _⟩ => show d.val = if (256 : Nat) = 1 then 0 else d.val; rw [if_neg (by decide)]
    | ⟨2, _⟩ => show (0 : Nat) = if (1 : Nat) = 1 then 0 else e.val; rw [if_pos rfl]
  · exact shapeCast_apply v shapeCasts_S2x256_S2x256x1 (ix3 p d (0 : Fin 1)) (ix2 p d) (by
      rw [Shape.rowMajor_val_two, Shape.rowMajor_val_three]
      show p.val * 256 + d.val = (p.val * 256 + d.val) * 1 + 0
      omega)

/-- The same array kept as a row `[2,1,256]` and spread over `[2,256,256]`: entry `(p,d,e)` is `v[p,e]`. -/
theorem row_apply (v : FVec Ideal S2x256 .f32) (p : Fin 2) (d e : Fin 256) :
    broadcastTo S2x256x256 (shapeCast S2x1x256 v shapeCasts_S2x256_S2x1x256) broadcasts_S2x1x256_S2x256x256 (ix3 p d e)
      = v (ix2 p e) := by
  refine (broadcastTo_apply _ broadcasts_S2x1x256_S2x256x256 (ix3 p d e) (ix3 p (0 : Fin 1) e) (fun a => ?_)).trans ?_
  · match a with
    | ⟨0, _⟩ => show p.val = if (2 : Nat) = 1 then 0 else p.val; rw [if_neg (by decide)]
    | ⟨1, _⟩ => show (0 : Nat) = if (1 : Nat) = 1 then 0 else d.val; rw [if_pos rfl]
    | ⟨2, _⟩ => show e.val = if (256 : Nat) = 1 then 0 else e.val; rw [if_neg (by decide)]
  · exact shapeCast_apply v shapeCasts_S2x256_S2x1x256 (ix3 p (0 : Fin 1) e) (ix2 p e) (by
      rw [Shape.rowMajor_val_two, Shape.rowMajor_val_three]
      show p.val * 256 + e.val = (p.val * 1 + 0) * 256 + e.val
      omega)

/-! ## The body's value at an entry -/

/-- The block's result at `(p, d, e)`: the uncentred numerator of rows `d` and `e` of batch `p`, over 4095. -/
theorem pay_apply (x : Vec Ideal S2x256x4096 .f32) (p : Fin 2) (d e : Fin 256) :
    k0_pay1 (F := Ideal) x (ix3 p d e)
      = Ideal.div (Cov.uncentred (fun k => x (ix3 p d k)) (fun k => x (ix3 p e k))) (Ideal.ofBits .f32 0x457FF000#32) := by
  unfold k0_pay1
  dsimp only
  rw [shapeCast_self]
  show Ideal.div (FloatOps.matmul (F := Ideal) DD none (truncf .bf16 x bitsLt_bf16_f32) (truncf .bf16 x bitsLt_bf16_f32) (constant S2x256x256 .f32 0x00000000#32) (ix3 p d e)
      - Ideal.div (broadcastTo S2x256x256 (shapeCast S2x256x1 (multiReduction (F := Ideal) .add [2] S2x256 x 0x00000000#32 reduces_S2x256x4096_S2x256 (.inl rfl) rfl) shapeCasts_S2x256_S2x256x1) broadcasts_S2x256x1_S2x256x256 (ix3 p d e)
        * broadcastTo S2x256x256 (shapeCast S2x1x256 (multiReduction (F := Ideal) .add [2] S2x256 x 0x00000000#32 reduces_S2x256x4096_S2x256 (.inl rfl) rfl) shapeCasts_S2x256_S2x1x256) broadcasts_S2x1x256_S2x256x256 (ix3 p d e))
        (Ideal.ofBits .f32 0x45800000#32)) (Ideal.ofBits .f32 0x457FF000#32) = _
  rw [product_apply, column_apply, row_apply, rowsum_apply, rowsum_apply]
  rfl

end Cert.KernelIdeal.Block

end
-- ==== Proof.CovArray.lean ====
/-
  From blocks to the whole array.

  Grid point `t` (of 16) stages batches `2t` and `2t+1` of the recast input `Y : [32, 256, 4096]`
  and writes back batches `2t`, `2t+1` of the result.  Entry `(p, d, e)` of what it writes depends
  only on rows `d` and `e` of batch `2t+p` of `Y`, so it is entry `(2t+p, d, e)` of the uncentred
  covariance array of `Y`: every point writes a block of ONE whole-array function.  The sixteen
  blocks cover the 32 batches (batch `b` is in the block of point `b / 2`), so after the run the
  result array is that function.  `Y` itself is the input recast by the one host operation before
  the region.
-/
import proofs.«157066_j25031069401649_2_alg».proof.Proof.Gen.KernelIdeal.Value
import proofs.«157066_j25031069401649_2_alg».proof.Proof.BlockEntry
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The two index maps over the grid: both windows move along the batch axis only, together, and
    stay below 16 blocks. -/
theorem index_maps : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 15 :=
  (by decide +kernel : ∀ t : Fin grid0.N, _)

/-- Every pair of batches is some point's block. -/
theorem index_onto : ∀ q : Fin 16, ∃ t : Fin cfg0.N, win0_1.index t = ![q.val, 0, 0] :=
  (by decide +kernel : ∀ q : Fin 16, ∃ t : Fin grid0.N, win0_1.index t = ![q.val, 0, 0])

/-- A block `x` that holds batches `2n`, `2n+1` of `Y` gives, at `j = (p, d, e)`, entry `(2n+p, d, e)` of the
    uncentred covariance array of `Y`. -/
theorem block_entry (Y : S32x256x4096.Idx → EReal) (x : Vec Ideal S2x256x4096 .f32) (n : Nat) (hn : n ≤ 15)
    (hx : ∀ (p : Fin 2) (d : Fin 256) (k : Fin 4096),
      x (ix3 p d k) = Y (ix3 (⟨n * 2 + p.val, by have := p.isLt; omega⟩ : Fin 32) d k))
    (j : S2x256x256.Idx) (i : S32x256x256.Idx)
    (h0 : (i 0).val = n * 2 + (j 0).val) (h1 : (i 1).val = (j 1).val) (h2 : (i 2).val = (j 2).val) :
    k0_pay1 (F := Ideal) x j = Cov.covU Y i := by
  obtain ⟨p, d, e, rfl⟩ : ∃ (p : Fin 2) (d e : Fin 256), j = ix3 p d e := ⟨j 0, j 1, j 2, eq_ix3 j⟩
  obtain ⟨b, d', e', rfl⟩ : ∃ (b : Fin 32) (d' e' : Fin 256), i = ix3 b d' e' := ⟨i 0, i 1, i 2, eq_ix3 i⟩
  have hlt : n * 2 + p.val < 32 := by have hp := p.isLt; clear h0 h1 h2 hx; omega
  have hb : b = (⟨n * 2 + p.val, hlt⟩ : Fin 32) := Fin.ext h0
  have hd : d' = d := Fin.ext h1
  have he : e' = e := Fin.ext h2
  subst hb hd he
  rw [Block.pay_apply]
  show _ = Cov.entryU Y _ _ _
  unfold Cov.entryU
  simp only [hx]

/-- WHAT POINT `t` WRITES BACK is block `t` of the uncentred covariance array of the recast input. -/
theorem flushed_eq (c : Dev nD) (t : Fin cfg0.N) :
    (dats m 0 c).flushed 1 t = ((cfg0.win 1).blk t).view.read (Elt Ideal) (Cov.covU (V m c main_v0)) := by
  rw [Value.flushed1]
  unfold out0_1
  rw [View.canon_unit_zero origin]
  simp only [View.ld_unit_zero (S := S2x256x4096) origin]
  obtain ⟨e0, e1, e2, e3, e4, e5⟩ := index_maps t
  funext j
  show k0_pay1 (F := Ideal) (iblk m c 0 t) j = Cov.covU (V m c main_v0) (((cfg0.win 1).blk t).view.emb j)
  refine block_entry (V m c main_v0) (iblk m c 0 t) (win0_1.index t (0 : Fin 3)) e5 (fun p d k => ?_) j _ ?_ ?_ ?_
  · show V m c main_v0 (((cfg0.win 0).blk t).view.emb (ix3 p d k)) = V m c main_v0 _
    refine congrArg (V m c main_v0) (funext fun a => Fin.ext ?_)
    match a with
    | ⟨0, _⟩ => show win0_0.index t (0 : Fin 3) * 2 + 1 * p.val = win0_1.index t (0 : Fin 3) * 2 + p.val; omega
    | ⟨1, _⟩ => show win0_0.index t (1 : Fin 3) * 256 + 1 * d.val = d.val; omega
    | ⟨2, _⟩ => show win0_0.index t (2 : Fin 3) * 4096 + 1 * k.val = k.val; omega
  · show win0_1.index t (0 : Fin 3) * 2 + 1 * (j 0).val = win0_1.index t (0 : Fin 3) * 2 + (j 0).val; omega
  · show win0_1.index t (1 : Fin 3) * 256 + 1 * (j 1).val = (j 1).val; omega
  · show win0_1.index t (2 : Fin 3) * 256 + 1 * (j 2).val = (j 2).val; omega

/-- An index of the result is in point `t`'s block iff each coordinate is in the block's range. -/
theorem mem_blk (t : Fin cfg0.N) (i : S32x256x256.Idx) :
    i ∈ ((cfg0.win 1).blk t).view.set ↔ ∀ a : Fin 3, win0_1.index t a * S2x256x256.size a ≤ (i a).val
      ∧ (i a).val < win0_1.index t a * S2x256x256.size a + S2x256x256.size a := by
  show i ∈ ((View.whole main_v1).slice (win0_1.rect t)).set ↔ _
  rw [View.set_slice_whole, Rect.mem_set_unit]
  exact Iff.rfl

/-- Every index of the result is in some point's block: batch `b` belongs to point `b / 2`. -/
theorem cover (i : S32x256x256.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 256 := (i 2).isLt
  obtain ⟨t, ht⟩ := index_onto ⟨(i 0).val / 2, by omega⟩
  have q0 : win0_1.index t (0 : Fin 3) = (i 0).val / 2 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- THE RESULT ARRAY after the run: the uncentred covariance array of the array the region stages. -/
theorem final (c : Dev nD) : (dats m 0 c).arrAt 1 cfg0.N = Cov.covU (V m c main_v0) :=
  (dats m 0 c).arrAt_eq_of_cover 1 (Cov.covU (V m c main_v0)) (fun t _ => flushed_eq m c t) cover

/-- The array the region stages is the input recast to `[32, 256, 4096]`: the one host operation before it. -/
theorem staged_eq (c : Dev nD) :
    (V m c main_v0 : S32x256x4096.Idx → EReal)
      = shapeCast S32x256x4096 (m ((c : Thread nD τ).loc main_arg0)) shapeCasts_S32x256x64x64_S32x256x4096 := by
  dsimp only [Gen.V, Gen.hostOps0]; after_results; rfl

/-- The kernel's run, read: the result is the uncentred covariance array of the recast input, the input unchanged. -/
theorem run : θ_run defs (onTc (τ := τ) (main (F := Ideal))) ⟨m, fun _ => 0, ρ⟩ fun r => ∀ c : Dev nD,
      r.2.mem ((c : Thread nD τ).loc main_v1)
        = Cov.covU (shapeCast S32x256x4096 (m ((c : Thread nD τ).loc main_arg0)) shapeCasts_S32x256x64x64_S32x256x4096)
      ∧ r.2.mem ((c : Thread nD τ).loc main_arg0) = m ((c : Thread nD τ).loc main_arg0) :=
  (θ_run defs _ _).mono (fun r h c => ⟨(h c).1.trans ((final m c).trans (congrArg Cov.covU (staged_eq m c))), (h c).2⟩)
    (Value.run_blocks m ρ)

end Cert.KernelIdeal.Whole

end
-- ==== Proof.RefEntry.lean ====
/-
  The reference, entry by entry.

  The reference reshapes the input to `y : [32, 256, 4096]`, transposes it to tokens, subtracts
  from every token the mean over the 4096 positions (the sum from zero divided by 4096), and
  contracts the centred tokens with themselves over the positions, dividing by 4095.  At
  `(b, d, e)` this is the centred numerator of rows `d` and `e` of batch `b` of `y`, over 4095.
-/
import proofs.«157066_j25031069401649_2_alg».proof.Proof.Gen.ReferenceIdeal.Read
import proofs.«157066_j25031069401649_2_alg».proof.Proof.CovLaw

noncomputable section

namespace Cert.ReferenceIdeal.RefValue

open Cert.ReferenceIdeal Cert.ReferenceIdeal.Gen Cert.ReferenceIdeal.Read Idealize.ShloMosaic Idealize.ShloMosaic.ValueIdx

/-- The reference's result at `(b, d, e)`. -/
theorem ref_apply (x0 : (⟨S32x256x64x64, .f32⟩ : BufTy).Contents (Elt Ideal)) (b : Fin 32) (d e : Fin 256) :
    val_main_v10 (F := Ideal) x0 (ix3 b d e)
      = Ideal.div (Cov.centred (fun k => val_main_v0 (F := Ideal) x0 (ix3 b d k)) (fun k => val_main_v0 (F := Ideal) x0 (ix3 b e k)))
          (Ideal.ofBits .f32 0x457FF000#32) := by
  have hl : ∀ k : Fin 4096, idx_main_v1 (lidx_main_v8 (ix3 b d e) k) = ix3 b d k := fun k =>
    funext fun a => Fin.ext (by match a with | ⟨0, _⟩ => rfl | ⟨1, _⟩ => rfl | ⟨2, _⟩ => rfl)
  have hr : ∀ k : Fin 4096, idx_main_v1 (ridx_main_v8 (ix3 b d e) k) = ix3 b e k := fun k =>
    funext fun a => Fin.ext (by match a with | ⟨0, _⟩ => rfl | ⟨1, _⟩ => rfl | ⟨2, _⟩ => rfl)
  have hlm : ∀ k j : Fin 4096, idx_main_v1 (idx_main_v2 (idx_main_v3 (idx_main_v6 (lidx_main_v8 (ix3 b d e) k))) j) = ix3 b d j := fun k j =>
    funext fun a => Fin.ext (by match a with | ⟨0, _⟩ => rfl | ⟨1, _⟩ => rfl | ⟨2, _⟩ => rfl)
  have hrm : ∀ k j : Fin 4096, idx_main_v1 (idx_main_v2 (idx_main_v3 (idx_main_v6 (ridx_main_v8 (ix3 b d e) k))) j) = ix3 b e j := fun k j =>
    funext fun a => Fin.ext (by match a with | ⟨0, _⟩ => rfl | ⟨1, _⟩ => rfl | ⟨2, _⟩ => rfl)
  rw [val_main_v10_apply, val_main_v9_apply, val_main_cst_1_apply, val_main_v8_apply]
  simp only [val_main_v7_apply, val_main_v6_apply, val_main_v5_apply, val_main_v4_apply, val_main_cst_0_apply,
    val_main_v3_apply, val_main_v2_apply, val_main_cst_apply, val_main_v1_apply, Ideal.ofBits_def, Ideal.hostDivf_def,
    Ideal.subf_def, Ideal.ofBits_zero_f32, zero_add, hl, hr, hlm, hrm]
  rfl

/-- The reference's whole result: the centred covariance array of the recast input. -/
theorem ref_eq (x0 : (⟨S32x256x64x64, .f32⟩ : BufTy).Contents (Elt Ideal)) :
    val_main_v10 (F := Ideal) x0 = Cov.covC (val_main_v0 (F := Ideal) x0) := by
  funext i
  obtain ⟨b, d, e, rfl⟩ : ∃ (b : Fin 32) (d e : Fin 256), i = ix3 b d e := ⟨i 0, i 1, i 2, eq_ix3 i⟩
  exact ref_apply x0 b d e

/-- The recast only moves entries: an input of reals recasts to an array of reals. -/
theorem recast_real (x0 : (⟨S32x256x64x64, .f32⟩ : BufTy).Contents (Elt Ideal))
    (hx : ∀ i, ∃ r : ℝ, x0 i = (r : EReal)) (j : S32x256x4096.Idx) :
    ∃ r : ℝ, val_main_v0 (F := Ideal) x0 j = (r : EReal) :=
  hx _

end Cert.ReferenceIdeal.RefValue

end
-- ==== Proof.FiniteInput.lean ====
/-
  What the precondition says of an entry.

  `finite_inputs` is the conjunction over every index of `|x| < +inf` (the word `0x7F800000`).
  On the extended reals `|a| = max a (−a)` is below `+inf` exactly when `a` is neither infinity,
  that is, when `a` is a real number.
-/
import proofs.«157066_j25031069401649_2_alg».proof.Pre_finite_inputs
import proofs.«157066_j25031069401649_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- An extended real whose absolute value compares below the word of `+inf` is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have hlt : max a (-a) < ⊤ := by
    by_contra hn
    simp [Ideal.cmp, hn] at h
  induction a using EReal.rec with
  | bot => simp at hlt
  | top => simp at hlt
  | coe r => exact ⟨r, rfl⟩

instance : Subsingleton Cert.Pre_finite_inputs.S_.Idx := ⟨fun a b => funext fun d => d.elim0⟩

/-- Under the precondition every entry of the input is a real number. -/
theorem real_of_pre (x : FVec Ideal Cert.Pre_finite_inputs.S32x256x64x64 .f32)
    (h : Cert.Pre_finite_inputs.fn (F := Ideal) x = fun _ => 1#1) (i : Cert.Pre_finite_inputs.S32x256x64x64.Idx) :
    ∃ r : ℝ, x i = (r : EReal) := by
  have h0 := congrFun h ValueIdx.ix0
  dsimp only [Cert.Pre_finite_inputs.fn] at h0
  have h1 := Host.reduce_andi_all _ _ _ _ _ h0 i
  exact real_of_abs_lt_inf (x i) h1

end Cert.Finite

end
-- ==== Proof.lean ====
/-
  Channel covariance of `x : [32, 256, 64, 64]`: for each batch, with the 64·64 positions flattened
  to 4096, the `256 × 256` matrix whose `(d, e)` entry is the covariance of channels `d` and `e`
  over the positions, with divisor 4095.

  The kernel never centres the data: over blocks of two batches it computes
      ( Σ_k y[b,d,k]·y[b,e,k] − (Σ_k y[b,d,k])·(Σ_k y[b,e,k]) / 4096 ) / 4095,
  where the reference subtracts each channel's mean first and contracts the centred data.  For
  real data these are the same number (Proof/CovLaw.lean); the law fails at infinite entries, and
  the precondition (every input finite, Proof/FiniteInput.lean) is what excludes them.  The
  kernel's blocks are pieced into the whole array in Proof/CovArray.lean over the per-entry
  reading of one block (Proof/BlockEntry.lean); the reference is read entry by entry in
  Proof/RefEntry.lean.  The ideal pass rewrote nothing, so the idealization claim is trivial.
-/
import proofs.«157066_j25031069401649_2_alg».proof.Defs
import proofs.«157066_j25031069401649_2_alg».proof.Proof.Gen.Kernel
import proofs.«157066_j25031069401649_2_alg».proof.Proof.Gen.Kernel.Skeleton
import proofs.«157066_j25031069401649_2_alg».proof.Proof.Gen.Kernel.Launch
import proofs.«157066_j25031069401649_2_alg».proof.Proof.Gen.Kernel.Points
import proofs.«157066_j25031069401649_2_alg».proof.Proof.Gen.Kernel.Frame
import proofs.«157066_j25031069401649_2_alg».proof.Proof.Gen.KernelIdeal
import proofs.«157066_j25031069401649_2_alg».proof.Proof.Gen.KernelIdeal.Skeleton
import proofs.«157066_j25031069401649_2_alg».proof.Proof.Gen.KernelIdeal.Launch
import proofs.«157066_j25031069401649_2_alg».proof.Proof.Gen.KernelIdeal.Points
import proofs.«157066_j25031069401649_2_alg».proof.Proof.Gen.KernelIdeal.Frame
import proofs.«157066_j25031069401649_2_alg».proof.Proof.Gen.ReferenceIdeal
import proofs.«157066_j25031069401649_2_alg».proof.Proof.Gen.Pre_finite_inputs
import proofs.«157066_j25031069401649_2_alg».proof.Proof.Gen.KernelIdeal.Value
import proofs.«157066_j25031069401649_2_alg».proof.Proof.Gen.ReferenceIdeal.Run
import proofs.«157066_j25031069401649_2_alg».proof.Proof.Gen.ReferenceIdeal.Read
import proofs.«157066_j25031069401649_2_alg».proof.Proof.CovArray
import proofs.«157066_j25031069401649_2_alg».proof.Proof.RefEntry
import proofs.«157066_j25031069401649_2_alg».proof.Proof.FiniteInput
import Idealize.ShloMosaic.Adequacy
import Idealize.ShloMosaic.Init

noncomputable section

namespace Cert.Proof

open Idealize.ShloMosaic Idealize.ShloMosaic.TcCoe Idealize.SL.Sem

/-- The three programs run, fault-free, with their argument unchanged: the kernel's two readings by their
    generated frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On a finite input the kernel's uncentred covariance array and the reference's centred one are the
    same array: both are read as functions of the input recast to `[32, 256, 4096]`, whose entries are
    reals by the precondition, and there the two spellings agree. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, hagree c]
  exact Cert.Cov.covC_eq_covU _
    (Cert.ReferenceIdeal.RefValue.recast_real _ (Cert.Finite.real_of_pre _ (hpre c)))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
